-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) (main_arg2 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S256x512 : Shape := ⟨2, ![256, 512]⟩
abbrev S256x1 : Shape := ⟨2, ![256, 1]⟩
abbrev S256x4096 : Shape := ⟨2, ![256, 4096]⟩
abbrev S256 : Shape := ⟨1, ![256]⟩

abbrev nBuf : Space → Nat
  | .hbm => 19
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S1x4096, .f32⟩
  | .hbm, ⟨12, _⟩ => ⟨S4096x1, .i32⟩
  | .hbm, ⟨13, _⟩ => ⟨S1x4096, .i32⟩
  | .hbm, ⟨14, _⟩ => ⟨S4096x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S4096x512, .f32⟩
  | .local _ .vmem, ⟨3, _⟩ => ⟨S256x1, .f32⟩
  | .local _ .vmem, ⟨4, _⟩ => ⟨S256x1, .f32⟩
  | .local _ .vmem, ⟨5, _⟩ => ⟨S1x4096, .f32⟩
  | .local _ .vmem, ⟨6, _⟩ => ⟨S256x1, .i32⟩
  | .local _ .vmem, ⟨7, _⟩ => ⟨S256x1, .i32⟩
  | .local _ .vmem, ⟨8, _⟩ => ⟨S1x4096, .i32⟩
  | .local _ .vmem, ⟨9, _⟩ => ⟨S256x1, .f32⟩
  | .local _ .vmem, ⟨10, _⟩ => ⟨S256x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  shapeCasts_S4096_S4096x1 : S4096.ShapeCasts S4096x1
  shapeCasts_S4096_S1x4096 : S4096.ShapeCasts S1x4096
  inb_S256x512_S256x512_0_0 : ∀ a, (![0, 0] : Fin 2 → Nat) a + S256x512.size a ≤ S256x512.size a
  h_S256x512 : 0 < S256x512.numel
  inb_S4096x512_S4096x512_0_0 : ∀ a, (![0, 0] : Fin 2 → Nat) a + S4096x512.size a ≤ S4096x512.size a
  h_S4096x512 : 0 < S4096x512.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  reduces_S256x4096_S256 : S256x4096.Reduces [1] S256
  shapeCasts_S256_S256x1 : S256.ShapeCasts S256x1
  reducesTo_S4096x1_S_d0_1 : S4096x1.ReducesTo [0, 1] S_
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .i32 = 32 ∨ (Rect.block (s := S4096x1) S256x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .i32 = 32 ∨ (Rect.block (s := S1x4096) S1x4096.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S512x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x1, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_call2_cst : Ref sig .tc := ⟨.hbm, 45, rfl⟩
abbrev main_call2_v0 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Law.lean ====
/-
  The algebra that joins the two programs, on the extended reals.

  For one row, with `a` the row's squared norm, `b j` the squared norm of column `j`, `d j` the inner product
  of the row with column `j`, and `msk j` the bit "row and column carry the same label":

  * the reference clamps the squared distance, `max ((a + b j) - w * d j) 0`, takes the largest such entry over
    the columns with the row's label and the smallest over the others, and returns
    `max ((largest - smallest) + g) 0`;
  * the kernel leaves `a` out of every entry, clamping `b j - w * d j` from below by `0 - a` instead.

  When `a` is a real number the reference's entry is the kernel's entry shifted by `a`
  (`max (a + y) 0 = a + max y (0 - a)`: adding a fixed number is monotone, and `a + (0 - a) = 0`); a shift by a
  real commutes with the masks' infinities (`a + ⊥ = ⊥`, `a + ⊤ = ⊤`), with a maximum and with a minimum over
  any finite set, and cancels in the difference of the two extremes. So the two rows agree. Nothing is asked of
  `b`, `d`, `w` or `g`: they may be infinite.
-/
import Idealize.ShloMosaic.PureOps.Ideal
import Idealize.ShloMosaic.PureOps.Ideal.Laws
import Idealize.ShloMosaic.Lib.ValueIdx

noncomputable section

namespace Cert.HardMine

open Idealize.ShloMosaic

/-! ## The three bit patterns the masks and the clamps use -/

/-- The f32 pattern of minus infinity is the bottom of the extended reals. -/
theorem ofBits_neg_inf : Ideal.ofBits .f32 0xFF800000#32 = (⊥ : EReal) := by simp [Ideal.ofBits, Ideal.ieee]

/-- The f32 pattern of plus infinity is the top of the extended reals. -/
theorem ofBits_pos_inf : Ideal.ofBits .f32 0x7F800000#32 = (⊤ : EReal) := by simp [Ideal.ofBits, Ideal.ieee]

/-! ## One row, in the two forms -/

/-- A row of the loss with the row's squared norm `a` left out of the entries (the kernel's form). -/
def kerRow {ι : Type} (s : Finset ι) (w g a : EReal) (b d : ι → EReal) (msk : ι → BitVec 1) : EReal :=
  max ((s.fold max ⊥ (fun j => Scalar.select (msk j) (max (b j - w * d j) (0 - a)) ⊥)
        - s.fold min ⊤ (fun j => Scalar.select (msk j) ⊤ (max (b j - w * d j) (0 - a)))) + g) 0

/-- A row of the loss over the clamped squared distances (the reference's form). -/
def refRow {ι : Type} (s : Finset ι) (w g a : EReal) (b d : ι → EReal) (msk : ι → BitVec 1) : EReal :=
  max ((s.fold max ⊥ (fun j => Scalar.select (msk j) (max ((a + b j) - w * d j) 0) ⊥)
        - s.fold min ⊤ (fun j => Scalar.select (msk j) ⊤ (max ((a + b j) - w * d j) 0))) + g) 0

/-! ## Shifting by a real number -/

/-- A real number and its negative sum to zero in the extended reals. -/
theorem coe_add_neg_coe (a : ℝ) : (a : EReal) + -(a : EReal) = 0 := by
  rw [← EReal.coe_neg, ← EReal.coe_add, add_neg_cancel, EReal.coe_zero]

/-- Clamping at zero after a shift by `a` is the shift of clamping at `-a`. -/
theorem clamp_shift (a : ℝ) (y : EReal) : max ((a : EReal) + y) 0 = (a : EReal) + max y (0 - (a : EReal)) := by
  rw [← max_add_add_left, zero_sub, coe_add_neg_coe]

/-- The reference's entry is the kernel's entry shifted by the row's squared norm. -/
theorem entry_shift (a : ℝ) (b z : EReal) :
    max (((a : EReal) + b) - z) 0 = (a : EReal) + max (b - z) (0 - (a : EReal)) := by
  rw [sub_eq_add_neg, add_assoc, ← sub_eq_add_neg, clamp_shift]

/-- The shift passes through a mask whose other branch is minus infinity. -/
theorem select_shift_bot (a : ℝ) (c : BitVec 1) (u : EReal) :
    Scalar.select c ((a : EReal) + u) ⊥ = (a : EReal) + Scalar.select c u ⊥ := by
  unfold Scalar.select; split
  · rfl
  · exact (EReal.add_bot _).symm

/-- The shift passes through a mask whose other branch is plus infinity. -/
theorem select_shift_top (a : ℝ) (c : BitVec 1) (u : EReal) :
    Scalar.select c ⊤ ((a : EReal) + u) = (a : EReal) + Scalar.select c ⊤ u := by
  unfold Scalar.select; split
  · exact (EReal.coe_add_top a).symm
  · rfl

/-- The largest of finitely many shifted values, from minus infinity, is the shifted largest. -/
theorem fold_max_shift {ι : Type} (a : ℝ) (s : Finset ι) (f : ι → EReal) :
    s.fold max ⊥ (fun j => (a : EReal) + f j) = (a : EReal) + s.fold max ⊥ f := by
  have h := Finset.fold_hom (op := max) (op' := max) (m := fun y : EReal => (a : EReal) + y) (b := ⊥) (s := s) (f := f)
    (fun x y => (max_add_add_left (a : EReal) x y).symm)
  simp only [EReal.add_bot] at h
  exact h

/-- The smallest of finitely many shifted values, from plus infinity, is the shifted smallest. -/
theorem fold_min_shift {ι : Type} (a : ℝ) (s : Finset ι) (f : ι → EReal) :
    s.fold min ⊤ (fun j => (a : EReal) + f j) = (a : EReal) + s.fold min ⊤ f := by
  have h := Finset.fold_hom (op := min) (op' := min) (m := fun y : EReal => (a : EReal) + y) (b := ⊤) (s := s) (f := f)
    (fun x y => (min_add_add_left (a : EReal) x y).symm)
  simp only [EReal.coe_add_top] at h
  exact h

/-- A common real shift cancels in a difference, whatever the two terms are. -/
theorem shift_sub_shift (a : ℝ) (P Q : EReal) : ((a : EReal) + P) - ((a : EReal) + Q) = P - Q := by
  have hn : -((a : EReal) + Q) = -(a : EReal) + -Q := by
    rw [EReal.neg_add (.inl (EReal.coe_ne_bot a)) (.inl (EReal.coe_ne_top a)), sub_eq_add_neg]
  calc ((a : EReal) + P) - ((a : EReal) + Q) = ((a : EReal) + P) + (-(a : EReal) + -Q) := by rw [sub_eq_add_neg, hn]
    _ = ((a : EReal) + -(a : EReal)) + (P + -Q) := add_add_add_comm _ _ _ _
    _ = P - Q := by rw [coe_add_neg_coe, zero_add, sub_eq_add_neg]

/-- The last three steps of a row — the difference of the extremes, the margin, the clamp — respect equalities. -/
theorem row_congr {A A' B B' Z : EReal} (g : EReal) (hA : A = A') (hB : B = B') (hZ : Z = 0) :
    max ((A - B) + g) Z = max ((A' - B') + g) 0 := by subst hA hB hZ; rfl

/-! ## The two forms of a row agree when the row's squared norm is a real number -/

theorem refRow_eq_kerRow {ι : Type} (s : Finset ι) (w g : EReal) (a : ℝ) (b d : ι → EReal) (msk : ι → BitVec 1) :
    refRow s w g (a : EReal) b d msk = kerRow s w g (a : EReal) b d msk := by
  unfold refRow kerRow
  simp only [entry_shift, select_shift_bot, select_shift_top, fold_max_shift, fold_min_shift, shift_sub_shift]

end Cert.HardMine

end
-- ==== Proof.LibColumn.lean ====
/-
  A column vector's layout operations read at an index: the two forms a reduction that keeps its axis
  (a row sum, a row maximum kept as an `[a, 1]` column) needs and Lib/ValueLayout.lean does not have.
  A one-axis array cast to a column reads the operand at the row; a column broadcast along the lanes reads
  the column at the row, whatever the lane.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`:
    row-major, `(i, u)` is element `i * 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums over the indices of a one-axis array and of a column -/

/-- The indices of a one-axis shape are its coordinates. -/
def idxEquiv1 {n : ℕ} : (⟨1, ![n]⟩ : Shape).Idx ≃ Fin n where
  toFun i := i 0
  invFun r := ix1 r
  left_inv i := (eq_ix1 i).symm
  right_inv _ := rfl

/-- A sum over the indices of an `[n]` array is the sum over its `n` coordinates. -/
theorem sum_idx1 {M : Type*} [AddCommMonoid M] {n : ℕ} (f : (⟨1, ![n]⟩ : Shape).Idx → M) :
    ∑ i, f i = ∑ r : Fin n, f (ix1 r) :=
  (Equiv.sum_comp idxEquiv1.symm f).symm

/-- A sum over the indices of an `[n, 1]` column is the sum over its `n` rows. -/
theorem sum_idx_col {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

end Cert.LibColumn
-- ==== Proof.Payload.lean ====
/-
  What the kernel body stores, read at one row.

  At grid point `t` the body loads a block of 256 source rows, all 4096 target rows, the source block's squared
  norms (a column), the targets' squared norms (a row) and the two label arrays, and stores one number per source
  row. Read at row `p`, that number is the row of `Cert.HardMine.kerRow` over the 4096 columns: the entry of
  column `j` is the target's squared norm minus twice the inner product of source row `p` with target row `j`
  (the matrix product contracts both operands' lane axis, so no transpose appears), clamped from below by minus
  the source row's squared norm; the mask is equality of the two labels; the row maximum runs from minus
  infinity over the same-label columns and the row minimum from plus infinity over the others.
-/
import proofs.«178665_j86887188398250_2_alg».proof.Proof.Gen.KernelIdeal.Skeleton
import proofs.«178665_j86887188398250_2_alg».proof.Proof.Law
import proofs.«178665_j86887188398250_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.LibColumn

/-- The body's matrix product: 256 source rows against 4096 target rows, both contracted on their 512 lanes. -/
abbrev D := dot_S256x512_S4096x512_S256x4096_1_1_0_0_n_n

/-- The left operand's row coordinate is the output's row. -/
theorem lhs_row (i : S256x4096.Idx) (q : D.contr.Idx) : (D.lhsIdx i q 0).val = (i 0).val := by
  unfold DotDims.lhsIdx
  rw [dif_neg (show ¬(0 : Fin S256x512.rank) ∈ D.lhsBatch by decide), dif_pos (show (0 : Fin S256x512.rank) ∈ D.lhsNonContracting by decide)]
  rfl

/-- The right operand's row coordinate is the output's column: the product pairs source rows with target rows. -/
theorem rhs_row (i : S256x4096.Idx) (q : D.contr.Idx) : (D.rhsIdx i q 0).val = (i 1).val := by
  unfold DotDims.rhsIdx
  rw [dif_neg (show ¬(0 : Fin S4096x512.rank) ∈ D.rhsBatch by decide), dif_pos (show (0 : Fin S4096x512.rank) ∈ D.rhsNonContracting by decide)]
  rfl

/-- The product at `(p, j)` is the inner product of source row `p` with target row `j`. -/
theorem dot_apply (v0 : FVec Ideal S256x512 .f32) (v1 : FVec Ideal S4096x512 .f32) (p : Fin 256) (j : Fin 4096) :
    matmul (F := Ideal) D (some .fp32) v0 v1 (constant S256x4096 .f32 0x00000000#32) (ix2 p j)
      = ∑ k : Fin 512, v0 (ix2 p k) * v1 (ix2 j k) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p j) ((contrEquiv1 D 512 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p j) ((contrEquiv1 D 512 rfl rfl).symm k) = ix2 j k := funext fun a => Fin.ext (by
    match a with
    | ⟨0, _⟩ => exact rhs_row _ _
    | ⟨1, _⟩ => exact (D.rhsIdx_val_of_single rfl _ _).trans hk)
  rw [el, er]

/-- A row's maximum from the minus-infinity pattern is the largest entry of the row, from the bottom. -/
theorem rowMax_apply (src : FVec Ideal S256x4096 .f32) (p : Fin 256) :
    multiReduction (F := Ideal) .maximumf [1] S256 src 0xFF800000#32 reduces_S256x4096_S256 (.inl rfl) rfl (ix1 p)
      = (Finset.univ : Finset (Fin 4096)).fold max (⊥ : EReal) (fun j => src (ix2 p j)) := by
  refine (Ideal.multiReduction_maximumf_single src 0xFF800000#32 reduces_S256x4096_S256 (.inl rfl) rfl (ix1 p)).trans ?_
  rw [show FloatOps.ofBits (F := Ideal) .f32 0xFF800000#32 = (⊥ : EReal) from HardMine.ofBits_neg_inf]
  refine Finset.fold_congr (fun j _ => ?_)
  exact congrArg src (funext fun a => Fin.ext (by match a with | ⟨0, _⟩ => rfl | ⟨1, _⟩ => rfl))

/-- A row's minimum from the plus-infinity pattern is the smallest entry of the row, from the top. -/
theorem rowMin_apply (src : FVec Ideal S256x4096 .f32) (p : Fin 256) :
    multiReduction (F := Ideal) .minimumf [1] S256 src 0x7F800000#32 reduces_S256x4096_S256 (.inl rfl) rfl (ix1 p)
      = (Finset.univ : Finset (Fin 4096)).fold min (⊤ : EReal) (fun j => src (ix2 p j)) := by
  refine (multiReduction_minimumf_eq_fold src 0x7F800000#32 reduces_S256x4096_S256 (.inl rfl) rfl (ix1 p)).trans ?_
  refine (reduces_S256x4096_S256.fold_filter_drop_single _ _ src (ix1 p)).trans ?_
  rw [show FloatOps.ofBits (F := Ideal) .f32 0x7F800000#32 = (⊤ : EReal) from HardMine.ofBits_pos_inf]
  refine Finset.fold_congr (fun j _ => ?_)
  exact congrArg src (funext fun a => Fin.ext (by match a with | ⟨0, _⟩ => rfl | ⟨1, _⟩ => rfl))

/-! ## The body's intermediate vectors, named -/

/-- The `[256, 4096]` matrix of clamped entries: the targets' squared norms (a row, broadcast down) minus twice the
    product, clamped from below by minus the source rows' squared norms (a column, broadcast along). -/
def entries (v0 : FVec Ideal S256x512 .f32) (v1 : FVec Ideal S4096x512 .f32) (v3 : FVec Ideal S1x4096 .f32)
    (v9 : FVec Ideal S256x1 .f32) : FVec Ideal S256x4096 .f32 :=
  maximumf
    (subf (broadcastTo S256x4096 (shapeCast S1x4096 v3 shapeCasts_S1x4096_S1x4096) broadcasts_S1x4096_S256x4096)
      (mulf (broadcast S256x4096 (Scalar.ofBits (F := Ideal) .f32 0x40000000#32))
        (matmul (F := Ideal) D (some .fp32) v0 v1 (constant S256x4096 .f32 0x00000000#32))))
    (broadcastTo S256x4096
      (subf (broadcast S256x1 (Scalar.ofBits (F := Ideal) .f32 0x00000000#32)) (shapeCast S256x1 v9 shapeCasts_S256x1_S256x1))
      broadcasts_S256x1_S256x4096)

/-- The `[256, 4096]` matrix of label agreements. -/
def sameLabel (v15 : IVec S256x1 32) (v17 : IVec S1x4096 32) : IVec S256x4096 1 :=
  cmpi .eq (broadcastTo S256x4096 (shapeCast S256x1 v15 shapeCasts_S256x1_S256x1) broadcasts_S256x1_S256x4096)
    (broadcastTo S256x4096 (shapeCast S1x4096 v17 shapeCasts_S1x4096_S1x4096) broadcasts_S1x4096_S256x4096)

/-- The entries at `(p, j)`. -/
theorem entries_apply (v0 : FVec Ideal S256x512 .f32) (v1 : FVec Ideal S4096x512 .f32) (v3 : FVec Ideal S1x4096 .f32)
    (v9 : FVec Ideal S256x1 .f32) (p : Fin 256) (j : Fin 4096) :
    entries v0 v1 v3 v9 (ix2 p j)
      = max (v3 (ix2 (0 : Fin 1) j) - Ideal.ofBits .f32 0x40000000#32 * ∑ k : Fin 512, v0 (ix2 p k) * v1 (ix2 j k))
          (0 - v9 (ix2 p (0 : Fin 1))) := by
  show max (broadcastTo S256x4096 (shapeCast S1x4096 v3 shapeCasts_S1x4096_S1x4096) broadcasts_S1x4096_S256x4096 (ix2 p j)
        - Ideal.ofBits .f32 0x40000000#32 * matmul (F := Ideal) D (some .fp32) v0 v1 (constant S256x4096 .f32 0x00000000#32) (ix2 p j))
      (broadcastTo S256x4096
        (subf (broadcast S256x1 (Scalar.ofBits (F := Ideal) .f32 0x00000000#32)) (shapeCast S256x1 v9 shapeCasts_S256x1_S256x1))
        broadcasts_S256x1_S256x4096 (ix2 p j)) = _
  rw [broadcastTo_1b_ab_apply, shapeCast_self, dot_apply, broadcastTo_a1_ab_apply]
  show max _ (Ideal.ofBits .f32 0x00000000#32 - shapeCast S256x1 v9 shapeCasts_S256x1_S256x1 (ix2 p (0 : Fin 1))) = _
  rw [shapeCast_self, Ideal.ofBits_zero_f32]

/-- The agreement bit at `(p, j)`: the source row's label against the target row's. -/
theorem sameLabel_apply (v15 : IVec S256x1 32) (v17 : IVec S1x4096 32) (p : Fin 256) (j : Fin 4096) :
    sameLabel v15 v17 (ix2 p j) = IntOp.cmpi .eq (v15 (ix2 p (0 : Fin 1))) (v17 (ix2 (0 : Fin 1) j)) := by
  show IntOp.cmpi .eq
      (broadcastTo S256x4096 (shapeCast S256x1 v15 shapeCasts_S256x1_S256x1) broadcasts_S256x1_S256x4096 (ix2 p j))
      (broadcastTo S256x4096 (shapeCast S1x4096 v17 shapeCasts_S1x4096_S1x4096) broadcasts_S1x4096_S256x4096 (ix2 p j)) = _
  rw [broadcastTo_a1_ab_apply, broadcastTo_1b_ab_apply, shapeCast_self, shapeCast_self]

/-- The entries kept on the same-label columns, minus infinity elsewhere. -/
def posVec (v0 : FVec Ideal S256x512 .f32) (v1 : FVec Ideal S4096x512 .f32) (v3 : FVec Ideal S1x4096 .f32)
    (v9 : FVec Ideal S256x1 .f32) (v15 : IVec S256x1 32) (v17 : IVec S1x4096 32) : FVec Ideal S256x4096 .f32 :=
  select (sameLabel v15 v17) (entries v0 v1 v3 v9) (broadcast S256x4096 (Scalar.ofBits (F := Ideal) .f32 0xFF800000#32))

/-- The entries kept on the other columns, plus infinity on the same-label ones. -/
def negVec (v0 : FVec Ideal S256x512 .f32) (v1 : FVec Ideal S4096x512 .f32) (v3 : FVec Ideal S1x4096 .f32)
    (v9 : FVec Ideal S256x1 .f32) (v15 : IVec S256x1 32) (v17 : IVec S1x4096 32) : FVec Ideal S256x4096 .f32 :=
  select (sameLabel v15 v17) (broadcast S256x4096 (Scalar.ofBits (F := Ideal) .f32 0x7F800000#32)) (entries v0 v1 v3 v9)

theorem posVec_apply (v0 : FVec Ideal S256x512 .f32) (v1 : FVec Ideal S4096x512 .f32) (v3 : FVec Ideal S1x4096 .f32)
    (v9 : FVec Ideal S256x1 .f32) (v15 : IVec S256x1 32) (v17 : IVec S1x4096 32) (p : Fin 256) (j : Fin 4096) :
    posVec v0 v1 v3 v9 v15 v17 (ix2 p j)
      = Scalar.select (IntOp.cmpi .eq (v15 (ix2 p (0 : Fin 1))) (v17 (ix2 (0 : Fin 1) j)))
          (max (v3 (ix2 (0 : Fin 1) j) - Ideal.ofBits .f32 0x40000000#32 * ∑ k : Fin 512, v0 (ix2 p k) * v1 (ix2 j k))
            (0 - v9 (ix2 p (0 : Fin 1)))) (⊥ : EReal) := by
  show Scalar.select (sameLabel v15 v17 (ix2 p j)) (entries v0 v1 v3 v9 (ix2 p j)) (Ideal.ofBits .f32 0xFF800000#32) = _
  rw [sameLabel_apply, entries_apply, HardMine.ofBits_neg_inf]

theorem negVec_apply (v0 : FVec Ideal S256x512 .f32) (v1 : FVec Ideal S4096x512 .f32) (v3 : FVec Ideal S1x4096 .f32)
    (v9 : FVec Ideal S256x1 .f32) (v15 : IVec S256x1 32) (v17 : IVec S1x4096 32) (p : Fin 256) (j : Fin 4096) :
    negVec v0 v1 v3 v9 v15 v17 (ix2 p j)
      = Scalar.select (IntOp.cmpi .eq (v15 (ix2 p (0 : Fin 1))) (v17 (ix2 (0 : Fin 1) j))) (⊤ : EReal)
          (max (v3 (ix2 (0 : Fin 1) j) - Ideal.ofBits .f32 0x40000000#32 * ∑ k : Fin 512, v0 (ix2 p k) * v1 (ix2 j k))
            (0 - v9 (ix2 p (0 : Fin 1)))) := by
  show Scalar.select (sameLabel v15 v17 (ix2 p j)) (Ideal.ofBits .f32 0x7F800000#32) (entries v0 v1 v3 v9 (ix2 p j)) = _
  rw [sameLabel_apply, entries_apply, HardMine.ofBits_pos_inf]

/-- The body's payload is the named vectors put together: the two row extremes kept as columns, their difference, the
    margin added, clamped at zero. -/
theorem pay_eq (v0 : FVec Ideal S256x512 .f32) (v1 : FVec Ideal S4096x512 .f32) (v3 : FVec Ideal S1x4096 .f32)
    (v9 : FVec Ideal S256x1 .f32) (v15 : IVec S256x1 32) (v17 : IVec S1x4096 32) :
    k0_pay1 (F := Ideal) v0 v1 v3 v9 v15 v17
      = maximumf
          (addf
            (subf
              (shapeCast S256x1 (multiReduction (F := Ideal) .maximumf [1] S256 (posVec v0 v1 v3 v9 v15 v17) 0xFF800000#32
                reduces_S256x4096_S256 (.inl rfl) rfl) shapeCasts_S256_S256x1)
              (shapeCast S256x1 (multiReduction (F := Ideal) .minimumf [1] S256 (negVec v0 v1 v3 v9 v15 v17) 0x7F800000#32
                reduces_S256x4096_S256 (.inl rfl) rfl) shapeCasts_S256_S256x1))
            (broadcast S256x1 (Scalar.ofBits (F := Ideal) .f32 0x3E99999A#32)))
          (broadcast S256x1 (Scalar.ofBits (F := Ideal) .f32 0x00000000#32)) := rfl

/-- The column of row maxima at row `p`: the largest same-label entry of the row, from the bottom. -/
theorem maxCol_apply (v0 : FVec Ideal S256x512 .f32) (v1 : FVec Ideal S4096x512 .f32) (v3 : FVec Ideal S1x4096 .f32)
    (v9 : FVec Ideal S256x1 .f32) (v15 : IVec S256x1 32) (v17 : IVec S1x4096 32) (p : Fin 256) (u : Fin 1) :
    shapeCast S256x1 (multiReduction (F := Ideal) .maximumf [1] S256 (posVec v0 v1 v3 v9 v15 v17) 0xFF800000#32
        reduces_S256x4096_S256 (.inl rfl) rfl) shapeCasts_S256_S256x1 (ix2 p u)
      = (Finset.univ : Finset (Fin 4096)).fold max (⊥ : EReal) (fun j =>
          Scalar.select (IntOp.cmpi .eq (v15 (ix2 p (0 : Fin 1))) (v17 (ix2 (0 : Fin 1) j)))
            (max (v3 (ix2 (0 : Fin 1) j) - Ideal.ofBits .f32 0x40000000#32 * ∑ k : Fin 512, v0 (ix2 p k) * v1 (ix2 j k))
              (0 - v9 (ix2 p (0 : Fin 1)))) (⊥ : EReal)) :=
  (shapeCast_a_a1_apply _ _ p u).trans
    ((rowMax_apply _ p).trans (Finset.fold_congr fun j _ => posVec_apply v0 v1 v3 v9 v15 v17 p j))

/-- The column of row minima at row `p`: the smallest other-label entry of the row, from the top. -/
theorem minCol_apply (v0 : FVec Ideal S256x512 .f32) (v1 : FVec Ideal S4096x512 .f32) (v3 : FVec Ideal S1x4096 .f32)
    (v9 : FVec Ideal S256x1 .f32) (v15 : IVec S256x1 32) (v17 : IVec S1x4096 32) (p : Fin 256) (u : Fin 1) :
    shapeCast S256x1 (multiReduction (F := Ideal) .minimumf [1] S256 (negVec v0 v1 v3 v9 v15 v17) 0x7F800000#32
        reduces_S256x4096_S256 (.inl rfl) rfl) shapeCasts_S256_S256x1 (ix2 p u)
      = (Finset.univ : Finset (Fin 4096)).fold min (⊤ : EReal) (fun j =>
          Scalar.select (IntOp.cmpi .eq (v15 (ix2 p (0 : Fin 1))) (v17 (ix2 (0 : Fin 1) j))) (⊤ : EReal)
            (max (v3 (ix2 (0 : Fin 1) j) - Ideal.ofBits .f32 0x40000000#32 * ∑ k : Fin 512, v0 (ix2 p k) * v1 (ix2 j k))
              (0 - v9 (ix2 p (0 : Fin 1))))) :=
  (shapeCast_a_a1_apply _ _ p u).trans
    ((rowMin_apply _ p).trans (Finset.fold_congr fun j _ => negVec_apply v0 v1 v3 v9 v15 v17 p j))

/-- The body's last four vector operations read at an index, for any two columns: their difference, plus the splat
    margin, clamped by the splat zero. -/
theorem tail_apply (X Y : FVec Ideal S256x1 .f32) (g z : BitVec 32) (i : S256x1.Idx) :
    maximumf (addf (subf X Y) (broadcast S256x1 (Scalar.ofBits (F := Ideal) .f32 g)))
        (broadcast S256x1 (Scalar.ofBits (F := Ideal) .f32 z)) i
      = max ((X i - Y i) + Ideal.ofBits .f32 g) (Ideal.ofBits .f32 z) := rfl

/-- The stored column at row `p` is the row of the loss in the kernel's form, over the 4096 columns. -/
theorem pay_apply (v0 : FVec Ideal S256x512 .f32) (v1 : FVec Ideal S4096x512 .f32) (v3 : FVec Ideal S1x4096 .f32)
    (v9 : FVec Ideal S256x1 .f32) (v15 : IVec S256x1 32) (v17 : IVec S1x4096 32) (p : Fin 256) (u : Fin 1) :
    k0_pay1 (F := Ideal) v0 v1 v3 v9 v15 v17 (ix2 p u)
      = HardMine.kerRow (Finset.univ : Finset (Fin 4096)) (Ideal.ofBits .f32 0x40000000#32) (Ideal.ofBits .f32 0x3E99999A#32)
          (v9 (ix2 p (0 : Fin 1))) (fun j => v3 (ix2 (0 : Fin 1) j)) (fun j => ∑ k : Fin 512, v0 (ix2 p k) * v1 (ix2 j k))
          (fun j => IntOp.cmpi .eq (v15 (ix2 p (0 : Fin 1))) (v17 (ix2 (0 : Fin 1) j))) :=
  (congrFun (pay_eq v0 v1 v3 v9 v15 v17) (ix2 p u)).trans
    ((tail_apply _ _ 0x3E99999A#32 0x00000000#32 (ix2 p u)).trans
      (HardMine.row_congr (Ideal.ofBits .f32 0x3E99999A#32) (maxCol_apply v0 v1 v3 v9 v15 v17 p u) (minCol_apply v0 v1 v3 v9 v15 v17 p u)
        Ideal.ofBits_zero_f32))

end Cert.KernelIdeal.Payload

end
-- ==== Proof.OutArray.lean ====
/-
  The output array the region leaves.

  The grid has 16 points; point `t` handles source rows `256 t … 256 t + 255`. Its source, squared-norm and label
  blocks are those rows of their arrays, the target arrays are staged whole at every point, and what it writes
  back is rows `256 t … 256 t + 255` of the output column. So the whole `[4096, 1]` output is one function of the
  arrays the region finds: at row `r` the row of the loss in the kernel's form (`Cert.HardMine.kerRow`) of row `r`'s
  squared norm, the targets' squared norms, the inner products of source row `r` with every target row, and the
  label agreements. The 16 blocks tile the 4096 rows (row `r` is in block `r / 256`), so the array after the run
  is that function everywhere.
-/
import proofs.«178665_j86887188398250_2_alg».proof.Proof.Gen.KernelIdeal.Frame
import proofs.«178665_j86887188398250_2_alg».proof.Proof.Payload
import Idealize.ShloMosaic.Lib.Pipeline.Value

noncomputable section

namespace Cert.KernelIdeal.Out

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The global row that local row `p` of grid point `t` is. -/
def row (t : Fin cfg0.N) (p : Fin 256) : Fin 4096 :=
  ⟨t.val * 256 + p.val, by have := t.isLt; have hN : cfg0.N = 16 := N_0; have := p.isLt; omega⟩

/-- Row `r` of the loss from six whole arrays: the source rows' squared norms (a column), the target rows' squared
    norms (a row), the two feature arrays and the labels as a column and as a row. -/
def rowFn (A2 : S4096x1.Idx → EReal) (A6 : S1x4096.Idx → EReal) (X0 X1 : S4096x512.Idx → EReal)
    (L7 : S4096x1.Idx → BitVec 32) (L8 : S1x4096.Idx → BitVec 32) (r : Fin 4096) : EReal :=
  HardMine.kerRow (Finset.univ : Finset (Fin 4096)) (Ideal.ofBits .f32 0x40000000#32) (Ideal.ofBits .f32 0x3E99999A#32)
    (A2 (ix2 r (0 : Fin 1))) (fun j => A6 (ix2 (0 : Fin 1) j))
    (fun j => ∑ k : Fin 512, X0 (ix2 r k) * X1 (ix2 j k))
    (fun j => IntOp.cmpi .eq (L7 (ix2 r (0 : Fin 1))) (L8 (ix2 (0 : Fin 1) j)))

/-- What the body stores at local row `p`, when its six blocks are the rows of six whole arrays that global row `r`
    and the columns need: row `r` of the loss of those arrays. -/
theorem block_row (A2 : S4096x1.Idx → EReal) (A6 : S1x4096.Idx → EReal) (X0 X1 : S4096x512.Idx → EReal)
    (L7 : S4096x1.Idx → BitVec 32) (L8 : S1x4096.Idx → BitVec 32)
    (v0 : FVec Ideal S256x512 .f32) (v1 : FVec Ideal S4096x512 .f32) (v3 : FVec Ideal S1x4096 .f32)
    (v9 : FVec Ideal S256x1 .f32) (v15 : IVec S256x1 32) (v17 : IVec S1x4096 32) (p : Fin 256) (u : Fin 1) (r : Fin 4096)
    (h0 : ∀ k : Fin 512, v0 (ix2 p k) = X0 (ix2 r k)) (h1 : ∀ (j : Fin 4096) (k : Fin 512), v1 (ix2 j k) = X1 (ix2 j k))
    (h2 : v9 (ix2 p (0 : Fin 1)) = A2 (ix2 r (0 : Fin 1))) (h3 : ∀ j : Fin 4096, v3 (ix2 (0 : Fin 1) j) = A6 (ix2 (0 : Fin 1) j))
    (h4 : v15 (ix2 p (0 : Fin 1)) = L7 (ix2 r (0 : Fin 1))) (h5 : ∀ j : Fin 4096, v17 (ix2 (0 : Fin 1) j) = L8 (ix2 (0 : Fin 1) j)) :
    k0_pay1 (F := Ideal) v0 v1 v3 v9 v15 v17 (ix2 p u) = rowFn A2 A6 X0 X1 L7 L8 r := by
  refine (Payload.pay_apply v0 v1 v3 v9 v15 v17 p u).trans ?_
  unfold rowFn
  simp only [h0, h1, h2, h3, h4, h5]

/-- The output array: at `(r, 0)`, row `r` of the loss of the arrays as the region finds them — the two squared-norm arrays
    and the two label arrays are the host's, computed before the region. -/
def G (c : Dev nD) : S4096x1.Idx → EReal := fun i =>
  rowFn (V m c main_v2) (V m c main_v6) (V m c main_arg0) (V m c main_arg1) (V m c main_v7) (V m c main_v8) ⟨(i 0).val, idx2_lt0 i⟩

/-- The printed index maps, decided over the 16 points: the source, squared-norm, label and output blocks are block `t`
    of their arrays' rows; the target arrays' one block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block read where the output's rows say -/

theorem blk0 (c : Dev nD) (t : Fin cfg0.N) (p : Fin 256) (k : Fin 512) :
    iblk m c 0 t (ix2 p k) = (V m c main_arg0 : S4096x512.Idx → EReal) (ix2 (row t p) k) := by
  obtain ⟨e0, e1, -⟩ := idx_facts t
  show V m c main_arg0 (((cfg0.win 0).blk t).view.emb (ix2 p k)) = V m c main_arg0 (ix2 (row t p) k)
  have h : ((cfg0.win 0).blk t).view.emb (ix2 p k) = ix2 (row t p) k := by
    funext a; apply Fin.ext
    match a with
    | ⟨0, _⟩ => show win0_0.index t (0 : Fin 2) * 256 + 1 * p.val = t.val * 256 + p.val; omega
    | ⟨1, _⟩ => show win0_0.index t (1 : Fin 2) * 512 + 1 * k.val = k.val; omega
  rw [h]

theorem blk1 (c : Dev nD) (t : Fin cfg0.N) (j : Fin 4096) (k : Fin 512) :
    iblk m c 1 t (ix2 j k) = (V m c main_arg1 : S4096x512.Idx → EReal) (ix2 j k) := by
  obtain ⟨-, -, e0, e1, -⟩ := idx_facts t
  show V m c main_arg1 (((cfg0.win 1).blk t).view.emb (ix2 j k)) = V m c main_arg1 (ix2 j k)
  have h : ((cfg0.win 1).blk t).view.emb (ix2 j k) = ix2 j k := by
    funext a; apply Fin.ext
    match a with
    | ⟨0, _⟩ => show win0_1.index t (0 : Fin 2) * 4096 + 1 * j.val = j.val; omega
    | ⟨1, _⟩ => show win0_1.index t (1 : Fin 2) * 512 + 1 * k.val = k.val; omega
  rw [h]

theorem blk2 (c : Dev nD) (t : Fin cfg0.N) (p : Fin 256) (u : Fin 1) :
    iblk m c 2 t (ix2 p u) = (V m c main_v2 : S4096x1.Idx → EReal) (ix2 (row t p) (0 : Fin 1)) := by
  obtain ⟨-, -, -, -, e0, e1, -⟩ := idx_facts t
  show V m c main_v2 (((cfg0.win 2).blk t).view.emb (ix2 p u)) = V m c main_v2 (ix2 (row t p) (0 : Fin 1))
  have h : ((cfg0.win 2).blk t).view.emb (ix2 p u) = ix2 (row t p) (0 : Fin 1) := by
    funext a; apply Fin.ext
    match a with
    | ⟨0, _⟩ => show win0_2.index t (0 : Fin 2) * 256 + 1 * p.val = t.val * 256 + p.val; omega
    | ⟨1, _⟩ => show win0_2.index t (1 : Fin 2) * 1 + 1 * u.val = 0; omega
  rw [h]

theorem blk3 (c : Dev nD) (t : Fin cfg0.N) (u : Fin 1) (j : Fin 4096) :
    iblk m c 3 t (ix2 u j) = (V m c main_v6 : S1x4096.Idx → EReal) (ix2 (0 : Fin 1) j) := by
  obtain ⟨-, -, -, -, -, -, e0, e1, -⟩ := idx_facts t
  show V m c main_v6 (((cfg0.win 3).blk t).view.emb (ix2 u j)) = V m c main_v6 (ix2 (0 : Fin 1) j)
  have h : ((cfg0.win 3).blk t).view.emb (ix2 u j) = ix2 (0 : Fin 1) j := by
    funext a; apply Fin.ext
    match a with
    | ⟨0, _⟩ => show win0_3.index t (0 : Fin 2) * 1 + 1 * u.val = 0; omega
    | ⟨1, _⟩ => show win0_3.index t (1 : Fin 2) * 4096 + 1 * j.val = j.val; omega
  rw [h]

theorem blk4 (c : Dev nD) (t : Fin cfg0.N) (p : Fin 256) (u : Fin 1) :
    iblk m c 4 t (ix2 p u) = (V m c main_v7 : S4096x1.Idx → BitVec 32) (ix2 (row t p) (0 : Fin 1)) := by
  obtain ⟨-, -, -, -, -, -, -, -, e0, e1, -⟩ := idx_facts t
  show V m c main_v7 (((cfg0.win 4).blk t).view.emb (ix2 p u)) = V m c main_v7 (ix2 (row t p) (0 : Fin 1))
  have h : ((cfg0.win 4).blk t).view.emb (ix2 p u) = ix2 (row t p) (0 : Fin 1) := by
    funext a; apply Fin.ext
    match a with
    | ⟨0, _⟩ => show win0_4.index t (0 : Fin 2) * 256 + 1 * p.val = t.val * 256 + p.val; omega
    | ⟨1, _⟩ => show win0_4.index t (1 : Fin 2) * 1 + 1 * u.val = 0; omega
  rw [h]

theorem blk5 (c : Dev nD) (t : Fin cfg0.N) (u : Fin 1) (j : Fin 4096) :
    iblk m c 5 t (ix2 u j) = (V m c main_v8 : S1x4096.Idx → BitVec 32) (ix2 (0 : Fin 1) j) := by
  obtain ⟨-, -, -, -, -, -, -, -, -, -, e0, e1, -⟩ := idx_facts t
  show V m c main_v8 (((cfg0.win 5).blk t).view.emb (ix2 u j)) = V m c main_v8 (ix2 (0 : Fin 1) j)
  have h : ((cfg0.win 5).blk t).view.emb (ix2 u j) = ix2 (0 : Fin 1) j := by
    funext a; apply Fin.ext
    match a with
    | ⟨0, _⟩ => show win0_5.index t (0 : Fin 2) * 1 + 1 * u.val = 0; omega
    | ⟨1, _⟩ => show win0_5.index t (1 : Fin 2) * 4096 + 1 * j.val = j.val; omega
  rw [h]

/-- The output block's local row `p` sits at global row `256 t + p`. -/
theorem emb6 (t : Fin cfg0.N) (p : Fin 256) (u : Fin 1) :
    ((cfg0.win 6).blk t).view.emb (ix2 p u) = ix2 (row t p) (0 : Fin 1) := by
  obtain ⟨-, -, -, -, -, -, -, -, -, -, -, -, e0, e1⟩ := idx_facts t
  funext a; apply Fin.ext
  match a with
  | ⟨0, _⟩ => show win0_6.index t (0 : Fin 2) * 256 + 1 * p.val = t.val * 256 + p.val; omega
  | ⟨1, _⟩ => show win0_6.index t (1 : Fin 2) * 1 + 1 * u.val = 0; omega

/-! ## What a point writes back, and the array after the run -/

/-- What point `t` writes back is block `t` of the output array `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero hz]
  simp only [View.ld_unit_zero (S := S256x512) hz, View.ld_unit_zero (S := S4096x512) hz, View.ld_unit_zero (S := S1x4096) hz,
    View.ld_unit_zero (S := S256x1) hz]
  funext y
  obtain ⟨p, u, rfl⟩ : ∃ (p : Fin 256) (u : Fin 1), y = ix2 p u := ⟨y 0, y 1, eq_ix2 y⟩
  show k0_pay1 (F := Ideal) (iblk m c 0 t) (iblk m c 1 t) (iblk m c 3 t) (iblk m c 2 t) (iblk m c 4 t) (iblk m c 5 t) (ix2 p u)
    = G m c (((cfg0.win 6).blk t).view.emb (ix2 p u))
  rw [emb6 t p u]
  exact block_row (V m c main_v2) (V m c main_v6) (V m c main_arg0) (V m c main_arg1) (V m c main_v7) (V m c main_v8)
    (iblk m c 0 t) (iblk m c 1 t) (iblk m c 3 t) (iblk m c 2 t) (iblk m c 4 t) (iblk m c 5 t) p u (row t p)
    (fun k => blk0 m c t p k) (fun j k => blk1 m c t j k) (blk2 m c t p 0) (fun j => blk3 m c t 0 j) (blk4 m c t p 0)
    (fun j => blk5 m c t 0 j)

/-- A row of the output is in point `t`'s block iff each coordinate is in the block's range on its axis. -/
theorem mem_blk (t : Fin cfg0.N) (i : S4096x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v9).slice (win0_6.rect t)).set ↔ _
  rw [View.set_slice_whole, Rect.mem_set_unit]
  exact Iff.rfl

/-- The 16 blocks tile the 4096 rows: row `r` is in block `r / 256`. -/
theorem cover (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 16 := N_0
  obtain ⟨t, ht⟩ : ∃ t : Fin cfg0.N, t.val = (i 0).val / 256 := ⟨⟨(i 0).val / 256, by omega⟩, rfl⟩
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1 ≤ (i 1).val ∧ (i 1).val < win0_6.index t (1 : Fin 2) * 1 + 1; omega

/-- The output array after the run is `G`. -/
theorem final (c : Dev nD) : (dats m 0 c).arrAt 6 cfg0.N = G m c :=
  (dats m 0 c).arrAt_eq_of_cover 6 (G m c) (fun t _ => flushed_eq m c t) cover

end Cert.KernelIdeal.Out

end
-- ==== Proof.KernelRun.lean ====
/-
  The kernel program's run, with its result named.

  After the region the host sums the `[4096, 1]` output column (from the zero pattern) and divides by the 4096
  pattern. The region leaves the output array at `Cert.KernelIdeal.Out.G` (every row's loss), so the result
  buffer ends at `meanOf G`: the zero pattern plus the sum of the 4096 rows' losses, divided by 4096. The
  three argument arrays end as launched.
-/
import proofs.«178665_j86887188398250_2_alg».proof.Proof.OutArray
import proofs.«178665_j86887188398250_2_alg».proof.Proof.LibColumn
import Idealize.ShloMosaic.Lib.StableHlo.Run

noncomputable section

namespace Cert.KernelIdeal.Out

open Cert.KernelIdeal Cert.KernelIdeal.Gen Idealize.ShloMosaic Idealize.ShloMosaic.TcCoe Idealize.SL.Sem
open Idealize.ShloMosaic.StableHlo Idealize.ShloMosaic.ValueIdx Cert.LibColumn
open Idealize.ShloMosaic.Pipeline (Dat)

variable (m : (ℓ : Loc nD τ sig) → Buf (Elt Ideal) ℓ) (ρ : Dev nD → PrngReg)

/-- The two host operations after the region, of any output column: its sum from the zero pattern, over 4096. -/
def meanOf (X : S4096x1.Idx → EReal) : S_.Idx → EReal :=
  Host.divf (F := Ideal) (Host.reduceAdd (F := Ideal) X (constant (F := Ideal) S_ .f32 0x00000000#32) reducesTo_S4096x1_S_d0_1 h_S_)
    (constant (F := Ideal) S_ .f32 0x45800000#32)

/-- Read at its one index: the zero pattern plus the sum over the 4096 rows, divided by the 4096 pattern. -/
theorem meanOf_apply (X : S4096x1.Idx → EReal) (i : S_.Idx) :
    meanOf X i = FloatOps.hostDivf (Ideal.ofBits .f32 0x00000000#32 + ∑ r : Fin 4096, X (ix2 r (0 : Fin 1)))
      (Ideal.ofBits .f32 0x45800000#32) := by
  unfold meanOf
  show FloatOps.hostDivf
      (Host.reduceAdd (F := Ideal) X (constant (F := Ideal) S_ .f32 0x00000000#32) reducesTo_S4096x1_S_d0_1 h_S_ i)
      (Ideal.ofBits .f32 0x45800000#32) = _
  simp only [Host.reduceAdd, Ideal.hostReduceAdd_def]
  rw [Ideal.hostReduceAdd_total reducesTo_S4096x1_S_d0_1 (fun b => b.elim0) X _ i, sum_idx_col]
  rfl

/-- What the lines after the region leave in the result buffer. -/
theorem tail_eq (c : Dev nD) :
    Pipeline.afterTail₀ cfgs (dats m) 0 (V0 m) [hostOps1] c main_v11 = meanOf (G m c) := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.devRef .tc main_v9)
      = G m c :=
    (Pipeline.withArrays_arr spec0 launch0.win.arr_inj c _ _ 6).trans (final m c)
  rw [hw]
  rfl

/-- Every weakly fair execution of the kernel program terminates with the result at the mean of the rows' losses and the
    argument arrays unchanged. -/
theorem run : θ_run defs (onTc (τ := τ) (main (F := Ideal))) ⟨m, fun _ => 0, ρ⟩ fun r => ∀ c : Dev nD,
      r.2.mem ((c.tc : Thread nD τ).loc main_v11) = meanOf (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v11 (Pipeline.mem_restRefs_of main_v11 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.Out

end
-- ==== Proof.RefRow.lean ====
/-
  The reference, read one row at a time.

  The reference builds the whole `[4096, 4096]` matrix of clamped squared distances, masks it twice by label
  agreement, reduces each row to its largest same-label entry and its smallest other-label entry, and ends with
  `max ((largest - smallest) + margin) 0` per row and the mean over rows. Read at row `r` this is the row of
  `Cert.HardMine.refRow` over the 4096 columns: the row's squared norm is the host's row sum of squares, the
  columns' squared norms the same sums for the target rows (transposed into a row), the inner products the
  host's matrix product of the sources with the transposed targets, read back at `(r, j)` as the sum over the 512
  lanes of source row `r` times target row `j`.
-/
import proofs.«178665_j86887188398250_2_alg».proof.Proof.Gen.ReferenceIdeal.Read
import proofs.«178665_j86887188398250_2_alg».proof.Proof.Law
import proofs.«178665_j86887188398250_2_alg».proof.Proof.LibColumn
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx Cert.LibColumn

/-! ## The composed index maps, by coordinates -/

theorem i7 (r j : Fin 4096) : idx_main_v7 (ix2 r j) = ix2 r (0 : Fin 1) :=
  funext fun a => Fin.ext (by match a with | ⟨0, _⟩ => rfl | ⟨1, _⟩ => rfl)
theorem i8 (r j : Fin 4096) : idx_main_v8 (ix2 r j) = ix2 (0 : Fin 1) j :=
  funext fun a => Fin.ext (by match a with | ⟨0, _⟩ => rfl | ⟨1, _⟩ => rfl)
theorem il (r j : Fin 4096) (k : Fin 512) : lidx_main_v11 (ix2 r j) k = ix2 r k :=
  funext fun a => Fin.ext (by match a with | ⟨0, _⟩ => rfl | ⟨1, _⟩ => rfl)
theorem ir (r j : Fin 4096) (k : Fin 512) : idx_main_v10 (ridx_main_v11 (ix2 r j) k) = ix2 j k :=
  funext fun a => Fin.ext (by match a with | ⟨0, _⟩ => rfl | ⟨1, _⟩ => rfl)
theorem i19 (r j : Fin 4096) : idx_main_v17 (idx_main_v19 (ix2 r j)) = ix1 r :=
  funext fun a => Fin.ext (by match a with | ⟨0, _⟩ => rfl)
theorem i20 (r j : Fin 4096) : idx_main_v18 (idx_main_v20 (ix2 r j)) = ix1 j :=
  funext fun a => Fin.ext (by match a with | ⟨0, _⟩ => rfl)

/-! ## The float operations of one entry and of one row, at the extended reals (over variables) -/

/-- An entry's four operations: the sum of the two squared norms, minus the scaled product, clamped. -/
theorem ops_entry (a b d : Ideal .f32) (w z : BitVec 32) :
    FloatOps.maximumf (FloatOps.subf (FloatOps.addf a b) (FloatOps.mulf (FloatOps.ofBits .f32 w) d)) (FloatOps.ofBits .f32 z)
      = max ((a + b) - Ideal.ofBits .f32 w * d) (Ideal.ofBits .f32 z) := rfl

/-- A row's last three operations: the difference of the extremes, plus the margin, clamped. -/
theorem ops_tail (P Q : Ideal .f32) (g z : BitVec 32) :
    FloatOps.maximumf (FloatOps.addf (FloatOps.subf P Q) (FloatOps.ofBits .f32 g)) (FloatOps.ofBits .f32 z)
      = max ((P - Q) + Ideal.ofBits .f32 g) (Ideal.ofBits .f32 z) := rfl

/-- Folding with the float maximum at the extended reals is folding with `max`. -/
theorem fold_maximumf {ι : Type} (s : Finset ι) (b : EReal) (f : ι → EReal) :
    s.fold (FloatOps.maximumf (F := Ideal) (φ := .f32)) b f = s.fold max b f := rfl

/-- Folding with the float minimum at the extended reals is folding with `min`. -/
theorem fold_minimumf {ι : Type} (s : Finset ι) (b : EReal) (f : ι → EReal) :
    s.fold (FloatOps.minimumf (F := Ideal) (φ := .f32)) b f = s.fold min b f := rfl

variable (x0 x1 : (⟨S4096x512, .f32⟩ : BufTy).Contents (Elt Ideal)) (x2 : (⟨S4096, .i32⟩ : BufTy).Contents (Elt Ideal))

/-- The clamped squared distance at `(r, j)`. -/
theorem entry_at (r j : Fin 4096) :
    val_main_v16 (F := Ideal) x0 x1 (ix2 r j)
      = max ((val_main_v2 (F := Ideal) x0 (ix2 r (0 : Fin 1)) + val_main_v6 (F := Ideal) x1 (ix2 (0 : Fin 1) j))
            - Ideal.ofBits .f32 0x40000000#32 * ∑ k : Fin 512, x0 (ix2 r k) * x1 (ix2 j k)) 0 := by
  rw [val_main_v16_apply, val_main_v14_apply, val_main_v9_apply, val_main_v7_apply, val_main_v8_apply, val_main_v13_apply,
    val_main_v12_apply, val_main_cst_1_apply, val_main_v11_apply, val_main_v15_apply, val_main_cst_2_apply, i7, i8]
  refine (ops_entry _ _ _ 0x40000000#32 0x00000000#32).trans ?_
  have hs : (∑ k : Fin 512, x0 (lidx_main_v11 (ix2 r j) k) * val_main_v10 (F := Ideal) x1 (ridx_main_v11 (ix2 r j) k))
      = ∑ k : Fin 512, x0 (ix2 r k) * x1 (ix2 j k) :=
    Finset.sum_congr rfl fun k _ => by rw [val_main_v10_apply, il, ir]
  rw [hs]
  exact congrArg (max _) Ideal.ofBits_zero_f32

/-- The label agreement at `(r, j)`. -/
theorem mask_at (r j : Fin 4096) :
    val_main_v21 (F := Ideal) x2 (ix2 r j) = IntOp.cmpi .eq (x2 (ix1 r)) (x2 (ix1 j)) := by
  rw [val_main_v21_apply, val_main_v19_apply, val_main_v17_apply, val_main_v20_apply, val_main_v18_apply, i19, i20]

/-- The same-label matrix at `(r, j)`. -/
theorem pos_at (r j : Fin 4096) :
    val_main_v22 (F := Ideal) x0 x1 x2 (ix2 r j)
      = Scalar.select (IntOp.cmpi .eq (x2 (ix1 r)) (x2 (ix1 j)))
          (max ((val_main_v2 (F := Ideal) x0 (ix2 r (0 : Fin 1)) + val_main_v6 (F := Ideal) x1 (ix2 (0 : Fin 1) j))
            - Ideal.ofBits .f32 0x40000000#32 * ∑ k : Fin 512, x0 (ix2 r k) * x1 (ix2 j k)) 0) (⊥ : EReal) := by
  rw [val_main_v22_apply, mask_at, entry_at, val_main_call0_v1_apply, val_main_call0_v0_apply, val_main_cst_3_apply]
  exact congrArg (Scalar.select _ _) HardMine.ofBits_neg_inf

/-- The other-label matrix at `(r, j)`. -/
theorem neg_at (r j : Fin 4096) :
    val_main_v24 (F := Ideal) x0 x1 x2 (ix2 r j)
      = Scalar.select (IntOp.cmpi .eq (x2 (ix1 r)) (x2 (ix1 j))) (⊤ : EReal)
          (max ((val_main_v2 (F := Ideal) x0 (ix2 r (0 : Fin 1)) + val_main_v6 (F := Ideal) x1 (ix2 (0 : Fin 1) j))
            - Ideal.ofBits .f32 0x40000000#32 * ∑ k : Fin 512, x0 (ix2 r k) * x1 (ix2 j k)) 0) := by
  rw [val_main_v24_apply, mask_at, entry_at, val_main_call1_v1_apply, val_main_call1_v0_apply, val_main_cst_5_apply]
  exact congrArg (fun t => Scalar.select _ t _) HardMine.ofBits_pos_inf

/-! ## The two row extremes, the row, and the mean -/

/-- The reference reduces the `[4096, 4096]` matrices along their columns. -/
theorem hred : S4096x4096.Reduces [1] S4096 := by decide

/-- The largest same-label entry of row `r`, from the bottom. -/
theorem maxRow_at (r : Fin 4096) :
    val_main_v23 (F := Ideal) x0 x1 x2 (ix1 r)
      = (Finset.univ : Finset (Fin 4096)).fold max (⊥ : EReal) (fun j =>
          Scalar.select (IntOp.cmpi .eq (x2 (ix1 r)) (x2 (ix1 j)))
            (max ((val_main_v2 (F := Ideal) x0 (ix2 r (0 : Fin 1)) + val_main_v6 (F := Ideal) x1 (ix2 (0 : Fin 1) j))
              - Ideal.ofBits .f32 0x40000000#32 * ∑ k : Fin 512, x0 (ix2 r k) * x1 (ix2 j k)) 0) (⊥ : EReal)) := by
  unfold val_main_v23
  refine (Host.reduce_eq_fold_single (FloatOps.maximumf (F := Ideal) (φ := .f32)) (val_main_v22 (F := Ideal) x0 x1 x2)
    (val_main_cst_4 (F := Ideal)) reducesTo_S4096x4096_S4096_d1 hred h_S_ (ix1 r)).trans ?_
  have hinit : val_main_cst_4 (F := Ideal) (Shape.Idx.first h_S_) = (⊥ : EReal) :=
    (val_main_cst_4_apply _).trans HardMine.ofBits_neg_inf
  rw [hinit]
  refine (fold_maximumf _ _ _).trans (Finset.fold_congr fun j _ => ?_)
  have hl : hred.lift (ix1 r) j = ix2 r j :=
    funext fun a => Fin.ext (by match a with | ⟨0, _⟩ => rfl | ⟨1, _⟩ => rfl)
  show val_main_v22 (F := Ideal) x0 x1 x2 (hred.lift (ix1 r) j) = _
  rw [hl]
  exact pos_at x0 x1 x2 r j

/-- The smallest other-label entry of row `r`, from the top. -/
theorem minRow_at (r : Fin 4096) :
    val_main_v25 (F := Ideal) x0 x1 x2 (ix1 r)
      = (Finset.univ : Finset (Fin 4096)).fold min (⊤ : EReal) (fun j =>
          Scalar.select (IntOp.cmpi .eq (x2 (ix1 r)) (x2 (ix1 j))) (⊤ : EReal)
            (max ((val_main_v2 (F := Ideal) x0 (ix2 r (0 : Fin 1)) + val_main_v6 (F := Ideal) x1 (ix2 (0 : Fin 1) j))
              - Ideal.ofBits .f32 0x40000000#32 * ∑ k : Fin 512, x0 (ix2 r k) * x1 (ix2 j k)) 0)) := by
  unfold val_main_v25
  refine (Host.reduce_eq_fold_single (FloatOps.minimumf (F := Ideal) (φ := .f32)) (val_main_v24 (F := Ideal) x0 x1 x2)
    (val_main_cst_6 (F := Ideal)) reducesTo_S4096x4096_S4096_d1 hred h_S_ (ix1 r)).trans ?_
  have hinit : val_main_cst_6 (F := Ideal) (Shape.Idx.first h_S_) = (⊤ : EReal) :=
    (val_main_cst_6_apply _).trans HardMine.ofBits_pos_inf
  rw [hinit]
  refine (fold_minimumf _ _ _).trans (Finset.fold_congr fun j _ => ?_)
  have hl : hred.lift (ix1 r) j = ix2 r j :=
    funext fun a => Fin.ext (by match a with | ⟨0, _⟩ => rfl | ⟨1, _⟩ => rfl)
  show val_main_v24 (F := Ideal) x0 x1 x2 (hred.lift (ix1 r) j) = _
  rw [hl]
  exact neg_at x0 x1 x2 r j

/-- Row `r` of the reference's per-row loss is the row in the reference's form. -/
theorem ref_row (r : Fin 4096) :
    val_main_v29 (F := Ideal) x0 x1 x2 (ix1 r)
      = HardMine.refRow (Finset.univ : Finset (Fin 4096)) (Ideal.ofBits .f32 0x40000000#32) (Ideal.ofBits .f32 0x3E99999A#32)
          (val_main_v2 (F := Ideal) x0 (ix2 r (0 : Fin 1))) (fun j => val_main_v6 (F := Ideal) x1 (ix2 (0 : Fin 1) j))
          (fun j => ∑ k : Fin 512, x0 (ix2 r k) * x1 (ix2 j k)) (fun j => IntOp.cmpi .eq (x2 (ix1 r)) (x2 (ix1 j))) := by
  rw [val_main_v29_apply, val_main_v28_apply, val_main_v26_apply, val_main_v27_apply, val_main_cst_7_apply,
    val_main_call2_v0_apply, val_main_call2_cst_apply]
  unfold HardMine.refRow
  exact (ops_tail _ _ 0x3E99999A#32 0x00000000#32).trans
    (HardMine.row_congr (Ideal.ofBits .f32 0x3E99999A#32) (maxRow_at x0 x1 x2 r) (minRow_at x0 x1 x2 r) Ideal.ofBits_zero_f32)

/-- A finite sum of real numbers, taken in the extended reals, is a real number. -/
theorem sum_real {ι : Type} (s : Finset ι) (f : ι → EReal) (h : ∀ i ∈ s, ∃ a : ℝ, f i = (a : EReal)) :
    ∃ a : ℝ, ∑ i ∈ s, f i = (a : EReal) := by
  classical
  induction s using Finset.induction_on with
  | empty => exact ⟨0, by simp⟩
  | insert x s hx ih =>
    obtain ⟨a, ha⟩ := h x (Finset.mem_insert_self x s)
    obtain ⟨b, hb⟩ := ih (fun i hi => h i (Finset.mem_insert_of_mem hi))
    exact ⟨a + b, by rw [Finset.sum_insert hx, ha, hb, EReal.coe_add]⟩

/-- When every source feature is a real number, so is each source row's squared norm: zero plus 512 squares. -/
theorem sqnorm_real (hx : ∀ i : S4096x512.Idx, ∃ a : ℝ, x0 i = (a : EReal)) (r : Fin 4096) :
    ∃ a : ℝ, val_main_v2 (F := Ideal) x0 (ix2 r (0 : Fin 1)) = (a : EReal) := by
  rw [val_main_v2_apply, val_main_v1_apply]
  obtain ⟨b, hb⟩ := sum_real Finset.univ
    (fun k : Fin 512 => val_main_v0 (F := Ideal) x0 (idx_main_v1 (idx_main_v2 (ix2 r (0 : Fin 1))) k)) (fun k _ => by
      obtain ⟨a, ha⟩ := hx (idx_main_v1 (idx_main_v2 (ix2 r (0 : Fin 1))) k)
      exact ⟨a * a, by rw [val_main_v0_apply, ha]; exact (EReal.coe_mul a a).symm⟩)
  refine ⟨b, ?_⟩
  rw [hb]
  show Ideal.ofBits .f32 0x00000000#32 + (b : EReal) = (b : EReal)
  rw [Ideal.ofBits_zero_f32, zero_add]

/-- The reference's result: the zero pattern plus the sum of the 4096 rows' losses, divided by the 4096 pattern. -/
theorem mean_at (i : S_.Idx) :
    val_main_v31 (F := Ideal) x0 x1 x2 i
      = FloatOps.hostDivf (Ideal.ofBits .f32 0x00000000#32 + ∑ r : Fin 4096, val_main_v29 (F := Ideal) x0 x1 x2 (ix1 r))
          (Ideal.ofBits .f32 0x45800000#32) := by
  have h8 : val_main_cst_8 (F := Ideal) (Shape.Idx.first h_S_) = Ideal.ofBits .f32 0x00000000#32 := rfl
  have h9 : val_main_cst_9 (F := Ideal) i = Ideal.ofBits .f32 0x45800000#32 := rfl
  rw [val_main_v31_apply, val_main_v30_apply, sum_idx1, h8, h9]

end Cert.ReferenceIdeal.Row

end
-- ==== Proof.Bridge.lean ====
/-
  The two programs compute one number.

  Both programs start with the same host lines: the squared norms of the source rows and of the target rows.
  The kernel program then hands them, the two feature arrays and the labels (reshaped to a column and to a row)
  to the region, which leaves row `r`'s loss in the kernel's form; the reference builds the matrix of clamped
  squared distances and reduces it, which gives row `r`'s loss in the reference's form. Under the precondition
  every source feature is a real number, so each source row's squared norm is one, and the two forms of a row
  agree (`Cert.HardMine.refRow_eq_kerRow`). Both programs end by summing the 4096 rows from the zero pattern and
  dividing by the 4096 pattern; a sum over the `[4096, 1]` column's indices and a sum over the `[4096]` array's
  indices are both the sum over the 4096 rows.
-/
import proofs.«178665_j86887188398250_2_alg».proof.Proof.KernelRun
import proofs.«178665_j86887188398250_2_alg».proof.Proof.RefRow
import proofs.«178665_j86887188398250_2_alg».proof.Proof.Gen.Pre_finite_inputs
import Idealize.ShloMosaic.Lib.ReduceAll
import Idealize.ShloMosaic.Lib.Affine

noncomputable section

namespace Cert.Bridge

open Idealize.ShloMosaic Idealize.ShloMosaic.TcCoe Idealize.SL.Sem Idealize.ShloMosaic.StableHlo
open Idealize.ShloMosaic.ValueIdx Cert.LibColumn

/-! ## Finite inputs are real numbers -/

instance : Subsingleton Cert.Pre_finite_inputs.S_.Idx := ⟨fun a b => funext fun d => d.elim0⟩

/-- An extended real whose absolute value is below plus infinity is a real number. -/
theorem real_of_abs_lt_top (x : EReal) (hx : Ideal.cmp .olt (max x (-x)) (⊤ : EReal) = 1#1) : ∃ a : ℝ, x = (a : EReal) := by
  have hlt : max x (-x) < ⊤ := by
    by_contra hn
    simp [Ideal.cmp, hn] at hx
  induction x using EReal.rec with
  | bot => simp at hlt
  | top => simp at hlt
  | coe a => exact ⟨a, rfl⟩

/-- Under the precondition every source feature is a real number: the precondition's first conjunct is the `and` over
    all entries of "the absolute value is below the plus-infinity pattern". -/
theorem src_real [Cert.Pre_finite_inputs.Facts] (x0 x1 : FVec Ideal Cert.Pre_finite_inputs.S4096x512 .f32)
    (x2 : IVec Cert.Pre_finite_inputs.S4096 32)
    (h : Cert.Pre_finite_inputs.fn (F := Ideal) x0 x1 x2 = fun _ => 1#1) (i : Cert.Pre_finite_inputs.S4096x512.Idx) :
    ∃ a : ℝ, x0 i = (a : EReal) := by
  have h0 := congrFun h ix0
  dsimp only [Cert.Pre_finite_inputs.fn] at h0
  obtain ⟨h1, -⟩ := IntOp.andi_eq_one.1 h0
  have hi := Host.reduce_andi_all _ _ _ _ _ h1 i
  have hb : broadcastInDim Cert.Pre_finite_inputs.S4096x512 ![] Cert.Pre_finite_inputs.Facts.bcast_S_S4096x512
      (constant (F := Ideal) Cert.Pre_finite_inputs.S_ .f32 0x7F800000#32) i = (⊤ : EReal) :=
    (broadcastInDim_apply _ _ _ i ix0 (fun a => a.elim0)).trans HardMine.ofBits_pos_inf
  have hi' : Ideal.cmp .olt (max (x0 i) (-(x0 i)))
      (broadcastInDim Cert.Pre_finite_inputs.S4096x512 ![] Cert.Pre_finite_inputs.Facts.bcast_S_S4096x512
        (constant (F := Ideal) Cert.Pre_finite_inputs.S_ .f32 0x7F800000#32) i) = 1#1 := hi
  rw [hb] at hi'
  exact real_of_abs_lt_top _ hi'

/-! ## The arrays the region finds are the reference's own stages -/

section Kernel

open Cert.KernelIdeal Cert.KernelIdeal.Gen Cert.KernelIdeal.Out

variable (m : (ℓ : Loc nD τ sig) → Buf (Elt Ideal) ℓ)

/-- The source rows' squared norms, as the kernel program's host lines compute them, are the reference's. -/
theorem V_v2 (c : Dev nD) : (V m c main_v2 : S4096x1.Idx → EReal)
    = Cert.ReferenceIdeal.Read.val_main_v2 (F := Ideal) (m ((c.tc : Thread nD τ).loc main_arg0)) := by
  show StableHlo.after hostOps0 (fun b => m (c, b)) (Proc.devRef .tc main_v2) = _
  after_results
  rfl

/-- The target rows' squared norms, transposed into a row, likewise. -/
theorem V_v6 (c : Dev nD) : (V m c main_v6 : S1x4096.Idx → EReal)
    = Cert.ReferenceIdeal.Read.val_main_v6 (F := Ideal) (m ((c.tc : Thread nD τ).loc main_arg1)) := by
  show StableHlo.after hostOps0 (fun b => m (c, b)) (Proc.devRef .tc main_v6) = _
  after_results
  rfl

/-- The labels as a column are the label array recast. -/
theorem V_v7 (c : Dev nD) : (V m c main_v7 : S4096x1.Idx → BitVec 32)
    = shapeCast S4096x1 (m ((c.tc : Thread nD τ).loc main_arg2)) shapeCasts_S4096_S4096x1 := by
  show StableHlo.after hostOps0 (fun b => m (c, b)) (Proc.devRef .tc main_v7) = _
  after_results
  rfl

/-- The labels as a row are the label array recast. -/
theorem V_v8 (c : Dev nD) : (V m c main_v8 : S1x4096.Idx → BitVec 32)
    = shapeCast S1x4096 (m ((c.tc : Thread nD τ).loc main_arg2)) shapeCasts_S4096_S1x4096 := by
  show StableHlo.after hostOps0 (fun b => m (c, b)) (Proc.devRef .tc main_v8) = _
  after_results
  rfl

/-! ## One row, then the mean -/

/-- Row `r` of the loss of six arrays is the reference's row `r`, when the squared-norm arrays are the reference's stages,
    the feature arrays the arguments, the label column and row the label array at the row and at the column, and every
    source feature a real number. -/
theorem rowFn_eq_ref (x0 x1 : (⟨Cert.ReferenceIdeal.S4096x512, .f32⟩ : BufTy).Contents (Elt Ideal))
    (x2 : (⟨Cert.ReferenceIdeal.S4096, .i32⟩ : BufTy).Contents (Elt Ideal))
    (A2 : S4096x1.Idx → EReal) (A6 : S1x4096.Idx → EReal) (X0 X1 : S4096x512.Idx → EReal)
    (L7 : S4096x1.Idx → BitVec 32) (L8 : S1x4096.Idx → BitVec 32)
    (hA2 : A2 = Cert.ReferenceIdeal.Read.val_main_v2 (F := Ideal) x0)
    (hA6 : A6 = Cert.ReferenceIdeal.Read.val_main_v6 (F := Ideal) x1) (hX0 : X0 = x0) (hX1 : X1 = x1)
    (hL7 : ∀ r : Fin 4096, L7 (ix2 r (0 : Fin 1)) = x2 (ix1 r)) (hL8 : ∀ j : Fin 4096, L8 (ix2 (0 : Fin 1) j) = x2 (ix1 j))
    (hx : ∀ i, ∃ a : ℝ, x0 i = (a : EReal)) (r : Fin 4096) :
    rowFn A2 A6 X0 X1 L7 L8 r = Cert.ReferenceIdeal.Read.val_main_v29 (F := Ideal) x0 x1 x2 (ix1 r) := by
  subst hA2 hA6 hX0 hX1
  obtain ⟨a, ha⟩ := Cert.ReferenceIdeal.Row.sqnorm_real X0 hx r
  rw [Cert.ReferenceIdeal.Row.ref_row, ha, HardMine.refRow_eq_kerRow]
  unfold rowFn
  simp only [hL7, hL8, ha]

/-- The kernel program's result is the reference's. -/
theorem result_eq (c : Dev nD) (hx : ∀ i, ∃ a : ℝ, m ((c.tc : Thread nD τ).loc main_arg0) i = (a : EReal)) :
    meanOf (G m c) = Cert.ReferenceIdeal.Read.val_main_v31 (F := Ideal) (m ((c.tc : Thread nD τ).loc main_arg0))
      (m ((c.tc : Thread nD τ).loc main_arg1)) (m ((c.tc : Thread nD τ).loc main_arg2)) := by
  funext i
  rw [meanOf_apply, Cert.ReferenceIdeal.Row.mean_at]
  refine congrArg (fun s => FloatOps.hostDivf (Ideal.ofBits .f32 0x00000000#32 + s) (Ideal.ofBits .f32 0x45800000#32))
    (Finset.sum_congr rfl fun r _ => ?_)
  show rowFn (V m c main_v2) (V m c main_v6) (V m c main_arg0) (V m c main_arg1) (V m c main_v7) (V m c main_v8) r = _
  refine rowFn_eq_ref _ _ _ _ _ _ _ _ _ (V_v2 m c) (V_v6 m c) (V_main_arg0 m c) (V_main_arg1 m c) (fun r' => ?_) (fun j => ?_) hx r
  · rw [V_v7 m c]; exact shapeCast_a_a1_apply _ _ r' 0
  · rw [V_v8 m c]; exact shapeCast_a_1a_apply _ _ 0 j

end Kernel

end Cert.Bridge

end
-- ==== Proof.lean ====
/-
  A triplet hard-mining loss: the kernel against its jnp reference, at the extended reals.

  For 4096 source rows and 4096 target rows of 512 features each, with one label per row, the loss of source row `r` is
  `max ((P - Q) + margin) 0`, where `P` is the largest clamped squared distance from row `r` to a target row with
  the same label and `Q` the smallest to a target row with another label (minus and plus infinity over an empty
  set); the result is the mean of the 4096 rows' losses.

  The reference clamps the squared distance `|s_r|² + |t_j|² - 2 s_r·t_j` at zero. The kernel leaves the row's own
  `|s_r|²` out of every entry and clamps `|t_j|² - 2 s_r·t_j` from below by `-|s_r|²` instead: the reference's entry is
  the kernel's shifted by `|s_r|²`, and a shift by a real number commutes with the masks' infinities, with the row
  maximum and minimum, and cancels in `P - Q` (Proof/Law.lean). The precondition makes every source feature a
  real number, hence every `|s_r|²`; nothing is needed of the targets. The matrix product, the row sums and the
  mean are exact at this instance, so their tilings and orders do not matter.

  The modules: Proof/Law.lean (the law on the extended reals), Proof/Payload.lean (what the kernel body stores, at
  one row), Proof/OutArray.lean (the output array after the region, from the 16 blocks), Proof/KernelRun.lean (the
  kernel program's run with its result named), Proof/RefRow.lean (the reference read at one row, and its mean),
  Proof/Bridge.lean (finite inputs are reals; the two results are one number), Proof/LibColumn.lean (a column's
  layout operations and index sums).
-/
import proofs.«178665_j86887188398250_2_alg».proof.Defs
import proofs.«178665_j86887188398250_2_alg».proof.Proof.Gen.Kernel
import proofs.«178665_j86887188398250_2_alg».proof.Proof.Gen.Kernel.Skeleton
import proofs.«178665_j86887188398250_2_alg».proof.Proof.Gen.Kernel.Launch
import proofs.«178665_j86887188398250_2_alg».proof.Proof.Gen.Kernel.Points
import proofs.«178665_j86887188398250_2_alg».proof.Proof.Gen.Kernel.Frame
import proofs.«178665_j86887188398250_2_alg».proof.Proof.Gen.KernelIdeal
import proofs.«178665_j86887188398250_2_alg».proof.Proof.Gen.KernelIdeal.Skeleton
import proofs.«178665_j86887188398250_2_alg».proof.Proof.Gen.KernelIdeal.Launch
import proofs.«178665_j86887188398250_2_alg».proof.Proof.Gen.KernelIdeal.Points
import proofs.«178665_j86887188398250_2_alg».proof.Proof.Gen.KernelIdeal.Frame
import proofs.«178665_j86887188398250_2_alg».proof.Proof.Gen.ReferenceIdeal
import proofs.«178665_j86887188398250_2_alg».proof.Proof.Gen.Pre_finite_inputs
import proofs.«178665_j86887188398250_2_alg».proof.Proof.Gen.ReferenceIdeal.Run
import proofs.«178665_j86887188398250_2_alg».proof.Proof.Gen.ReferenceIdeal.Read
import proofs.«178665_j86887188398250_2_alg».proof.Proof.Bridge
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host lines only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, under the precondition, both programs end with the mean of the rows' losses:
    the kernel program by its run, the reference by its run rewritten by the agreement and the bridge. -/
theorem algebraic : Cert.algebraic_KernelIdeal_ReferenceIdeal := by
  intro m ρ m' ρ' hpre hagree
  refine ⟨fun c => Cert.KernelIdeal.Out.meanOf (Cert.KernelIdeal.Out.G m c), Cert.KernelIdeal.Out.run m ρ, ?_⟩
  refine (θ_run Cert.ReferenceIdeal.defs _ _).mono
    (fun _ h c => ⟨(h c).1.trans ((Cert.ReferenceIdeal.Read.val_main_v31_eq _ _ _).trans ?_), (h c).2⟩)
    (Cert.ReferenceIdeal.Value.run (F := Ideal) m' ρ')
  rw [(hagree c).1, (hagree c).2.1, (hagree c).2.2]
  exact (Cert.Bridge.result_eq m c (fun i => Cert.Bridge.src_real _ _ _ (hpre c) i)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
